-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S5632x2048 : Shape := ⟨2, ![5632, 2048]⟩
abbrev S2048x5632 : Shape := ⟨2, ![2048, 5632]⟩
abbrev S5632 : Shape := ⟨1, ![5632]⟩
abbrev S2048 : Shape := ⟨1, ![2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_
  bcast_S_S5632 : S_.BroadcastsInDim S5632 (![] : Fin 0 → Fin S5632.rank)
  reducesTo_S5632_S_d0 : S5632.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S5632 .f32) (main_arg5 : FVec F S5632 .f32) (main_arg6 : FVec F S2048 .f32) (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  let main_v19 : FVec F S5632 .f32 := Host.absf main_arg4
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  let main_v24 : FVec F S5632 .f32 := Host.absf main_arg5
  let main_cst_8 : FVec F S_ .f32 := constant S_ .f32 0x7F800000#32
  let main_v25 : FVec F S5632 .f32 := broadcastInDim S5632 ![] bcast_S_S5632 main_cst_8
  let main_v26 : IVec S5632 1 := cmpf .olt main_v24 main_v25
  let main_c_9 : IVec S_ 1 := constantI S_ 1 1#1
  let main_v27 : IVec S_ 1 := (fun x v => Host.reduce IntOp.andi x v reducesTo_S5632_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S2x2048x2048 .f32) (main_arg1 : FVec F S5632x2048 .f32) (main_arg2 : FVec F S5632x2048 .f32) (main_arg3 : FVec F S2048x5632 .f32) (main_arg4 : FVec F S5632 .f32) (main_arg5 : FVec F S5632 .f32) (main_arg6 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_arg4 main_arg5 main_arg6 main_v13 main_v16
-- ==== Kernel.lean ====
abbrev S2x2048x2048 : Shape := ⟨3, ![2, 2048, 2048]⟩
abbrev S5632x2048 : Shape := ⟨2, ![5632, 2048]⟩
abbrev S2048x5632 : Shape := ⟨2, ![2048, 5632]⟩
abbrev S5632 : Shape := ⟨1, ![5632]⟩
abbrev S2048 : Shape := ⟨1, ![2048]⟩
abbrev S4096x2048 : Shape := ⟨2, ![4096, 2048]⟩
abbrev S1x5632 : Shape := ⟨2, ![1, 5632]⟩
abbrev S1x2048 : Shape := ⟨2, ![1, 2048]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩

abbrev nBuf : Space → Nat
  | .hbm => 17
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S5632x2048, .f32⟩
  | .hbm, ⟨2, _⟩ => ⟨S5632x2048, .f32⟩
  | .hbm, ⟨3, _⟩ => ⟨S2048x5632, .f32⟩
  | .hbm, ⟨4, _⟩ => ⟨S5632, .f32⟩
  | .hbm, ⟨5, _⟩ => ⟨S5632, .f32⟩
  | .hbm, ⟨6, _⟩ => ⟨S2048, .f32⟩
  | .hbm, ⟨7, _⟩ => ⟨S4096x2048, .f32⟩
  | .hbm, ⟨8, _⟩ => ⟨S4096x2048, .bf16⟩
  | .hbm, ⟨9, _⟩ => ⟨S5632x2048, .bf16⟩
  | .hbm, ⟨10, _⟩ => ⟨S5632x2048, .bf16⟩
  | .hbm, ⟨11, _⟩ => ⟨S2048x5632, .bf16⟩
  | .hbm, ⟨12, _⟩ => ⟨S1x5632, .f32⟩
  | .hbm, ⟨13, _⟩ => ⟨S1x5632, .f32⟩
  | .hbm, ⟨14, _⟩ => ⟨S1x2048, .f32⟩
  | .hbm, ⟨15, _⟩ => ⟨S4096x2048, .f32⟩
  | .hbm, ⟨16, _⟩ => ⟨S2x2048x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v31 : BitVec 1 := Scalar.cmpi .eq arg1 c10_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2x2048x2048_S4096x2048 : S2x2048x2048.ShapeCasts S4096x2048
  bitsLt_bf16_f32 : FTy.bits .bf16 < FTy.bits .f32
  shapeCasts_S5632_S1x5632 : S5632.ShapeCasts S1x5632
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x2048_S2x2048x2048 : S4096x2048.ShapeCasts S2x2048x2048
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S5632x2048.size a
  hwx0_1 : ∀ i : grid0.Coords, EltTy.bits .bf16 = 32 ∨ (Rect.block (s := S5632x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S5632x2048.size a
  hwx0_2 : ∀ i : grid0.Coords, EltTy.bits .bf16 = 32 ∨ (Rect.block (s := S5632x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x5632.size a
  hwx0_3 : ∀ i : grid0.Coords, EltTy.bits .bf16 = 32 ∨ (Rect.block (s := S2048x5632) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x5632.size a
  hwx0_4 : ∀ i : grid0.Coords, EltTy.bits .f32 = 32 ∨ (Rect.block (s := S1x5632) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x5632.size a
  hwx0_5 : ∀ i : grid0.Coords, EltTy.bits .f32 = 32 ∨ (Rect.block (s := S1x5632) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S4096x2048.size a
  hwx0_7 : ∀ i : grid0.Coords, EltTy.bits .f32 = 32 ∨ (Rect.block (s := S4096x2048) S512x2048.size (cc0_transform_7 i) (hinb0_7 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S5632x2048 : Shape := ⟨2, ![5632, 2048]⟩
abbrev S2048x5632 : Shape := ⟨2, ![2048, 5632]⟩
abbrev S5632 : Shape := ⟨1, ![5632]⟩
abbrev S2048 : Shape := ⟨1, ![2048]⟩
abbrev S4096x2048 : Shape := ⟨2, ![4096, 2048]⟩
abbrev S4096x5632 : Shape := ⟨2, ![4096, 5632]⟩
abbrev S1x5632 : Shape := ⟨2, ![1, 5632]⟩
abbrev S_ : Shape := ⟨0, ![]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S5632x2048, .f32⟩
  | .hbm, ⟨2, _⟩ => ⟨S5632x2048, .f32⟩
  | .hbm, ⟨3, _⟩ => ⟨S2048x5632, .f32⟩
  | .hbm, ⟨4, _⟩ => ⟨S5632, .f32⟩
  | .hbm, ⟨5, _⟩ => ⟨S5632, .f32⟩
  | .hbm, ⟨6, _⟩ => ⟨S2048, .f32⟩
  | .hbm, ⟨7, _⟩ => ⟨S4096x2048, .f32⟩
  | .hbm, ⟨8, _⟩ => ⟨S4096x5632, .f32⟩
  | .hbm, ⟨9, _⟩ => ⟨S1x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  shapeCasts_S2x2048x2048_S4096x2048 : S2x2048x2048.ShapeCasts S4096x2048
  bcast_S5632_S1x5632_1 : S5632.BroadcastsInDim S1x5632 (![1] : Fin 1 → Fin S1x5632.rank)
  bcast_S1x5632_S4096x5632_0_1 : S1x5632.BroadcastsInDim S4096x5632 (![0, 1] : Fin 2 → Fin S4096x5632.rank)
  bcast_S_S4096x5632 : S_.BroadcastsInDim S4096x5632 (![] : Fin 0 → Fin S4096x5632.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  shapeCasts_S4096x2048_S2x2048x2048 : S4096x2048.ShapeCasts S2x2048x2048
  dot_S4096x2048_S5632x2048_S4096x5632_1_1_0_0_n_n_wf : DotDims.WF S4096x2048 S5632x2048 S4096x5632 [1] [1] [0] [0] [] []
  dot_S4096x5632_S2048x5632_S4096x2048_1_1_0_0_n_n_wf : DotDims.WF S4096x5632 S2048x5632 S4096x2048 [1] [1] [0] [0] [] []

variable [Facts₀]

def dot_S4096x2048_S5632x2048_S4096x5632_1_1_0_0_n_n : DotDims S4096x2048 S5632x2048 S4096x5632 where
  lhsContracting := [1]
  rhsContracting := [1]
  lhsNonContracting := [0]
  rhsNonContracting := [0]
  lhsBatch := []
  rhsBatch := []
  wf := dot_S4096x2048_S5632x2048_S4096x5632_1_1_0_0_n_n_wf
def dot_S4096x5632_S2048x5632_S4096x2048_1_1_0_0_n_n : DotDims S4096x5632 S2048x5632 S4096x2048 where
  lhsContracting := [1]
  rhsContracting := [1]
  lhsNonContracting := [0]
  rhsNonContracting := [0]
  lhsBatch := []
  rhsBatch := []
  wf := dot_S4096x5632_S2048x5632_S4096x2048_1_1_0_0_n_n_wf

class Facts : Prop extends Facts₀ where

variable [Facts]
-- ==== Proof.LibIndexSums.lean ====
/-
  Finite sums over an array's index set, re-bracketed: general lemmas over any commutative additive monoid.

  * A sum over the index set of a rank-3 or rank-4 shape is the nested sum over its coordinates (the rank-2 case is
    the library's own).
  * A sum over Fin (m * n) is the sum over the quotient a : Fin m and the remainder b : Fin n of the value at
    b + n * a — the step that turns a sum over a long axis into a sum over blocks and positions inside a block, or a
    sum over a row-major grid of points into a sum over the grid's two coordinates.
-/
import Idealize.ShloMosaic.Lib.ValueIdx

open scoped BigOperators

namespace Cert.IndexSums

open Idealize.ShloMosaic Idealize.ShloMosaic.ValueIdx

variable {M : Type*} [AddCommMonoid M]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the quotient `a : Fin m` and the remainder `b : Fin n` of the value at
    `b + n * a`. -/
theorem sum_fin_mul {m n : Nat} (f : Fin (m * n) → M) :
    ∑ k, f k = ∑ a : Fin m, ∑ b : Fin n, f (finProdFinEquiv (a, b)) := by
  rw [← Equiv.sum_comp finProdFinEquiv f, Fintype.sum_prod_type]

end Cert.IndexSums
-- ==== Proof.Spec.lean ====
/-
  A gated two-layer perceptron with per-channel scales, as one function of its arguments, and the one law that
  joins a blocked evaluation of it to the plain one.

  For a token matrix x : T × H, two weight matrices gw, uw : I × H, an output weight matrix dw : H × I and scale
  vectors gs, us : I and ds : H,

    proj x w s t i  = (∑ h, x t h · w i h) · s i
    hidden t i      = proj x gw gs t i · σ(proj x gw gs t i) · proj x uw us t i        (σ the logistic function)
    mlp t o         = (∑ i, hidden t i · dw o i) · ds o.

  A blocked evaluation cuts the intermediate axis I = K · C into K blocks of C channels, and adds the K partial sums
  ∑_{c < C} hidden t (C·k + c) · dw o (C·k + c) one after another onto a zero. Over the extended reals addition is
  commutative and associative, so the running sum after k blocks is the sum over the first k blocks, and after all K
  blocks it is the whole sum over I: no finiteness is needed anywhere.
-/
import Idealize.ShloMosaic.PureOps.Ideal
import proofs.«175388_j4638564680470_2_alg».proof.Proof.LibIndexSums

open scoped BigOperators

noncomputable section

namespace Cert.GatedMlp

open Idealize.ShloMosaic Idealize.ShloMosaic.ValueIdx

variable {T H I : Nat}

/-- One entry of a scaled projection: row `t` of `x` against row `i` of `w`, times the channel's scale. -/
def proj (x : Fin T → Fin H → EReal) (w : Fin I → Fin H → EReal) (s : Fin I → EReal) (t : Fin T) (i : Fin I) : EReal :=
  (∑ h : Fin H, x t h * w i h) * s i

/-- The gated hidden activation: silu of the gate projection times the up projection. -/
def hidden (x : Fin T → Fin H → EReal) (gw uw : Fin I → Fin H → EReal) (gs us : Fin I → EReal) (t : Fin T) (i : Fin I) : EReal :=
  proj x gw gs t i * Ideal.logistic (proj x gw gs t i) * proj x uw us t i

/-- The down projection of the hidden activation, scaled per output channel. -/
def mlp {O : Nat} (x : Fin T → Fin H → EReal) (gw uw : Fin I → Fin H → EReal) (dw : Fin O → Fin I → EReal)
    (gs us : Fin I → EReal) (ds : Fin O → EReal) (t : Fin T) (o : Fin O) : EReal :=
  (∑ i : Fin I, hidden x gw uw gs us t i * dw o i) * ds o

/-- The same over arrays of this problem's shapes: tokens [4096, 2048], weights [5632, 2048] and [2048, 5632], scales
    [5632] and [2048]; the result is a [4096, 2048] array. -/
def mlpArr (x : (⟨2, ![4096, 2048]⟩ : Shape).Idx → EReal) (gw uw : (⟨2, ![5632, 2048]⟩ : Shape).Idx → EReal)
    (dw : (⟨2, ![2048, 5632]⟩ : Shape).Idx → EReal) (gs us : (⟨1, ![5632]⟩ : Shape).Idx → EReal)
    (ds : (⟨1, ![2048]⟩ : Shape).Idx → EReal) : (⟨2, ![4096, 2048]⟩ : Shape).Idx → EReal :=
  fun j => mlp (fun t h => x (ix2 t h)) (fun i h => gw (ix2 i h)) (fun i h => uw (ix2 i h)) (fun o i => dw (ix2 o i))
    (fun i => gs (ix1 i)) (fun i => us (ix1 i)) (fun o => ds (ix1 o)) (j 0) (j 1)

/-- A projection entry depends on one row of `x`, one row of `w` and one scale only. -/
theorem proj_congr {T' I' : Nat} (x : Fin T → Fin H → EReal) (w : Fin I → Fin H → EReal) (s : Fin I → EReal)
    (x' : Fin T' → Fin H → EReal) (w' : Fin I' → Fin H → EReal) (s' : Fin I' → EReal)
    (t : Fin T) (i : Fin I) (t' : Fin T') (i' : Fin I')
    (hx : ∀ h, x' t' h = x t h) (hw : ∀ h, w' i' h = w i h) (hs : s' i' = s i) :
    proj x' w' s' t' i' = proj x w s t i := by
  unfold proj
  rw [hs]
  congr 1
  exact Finset.sum_congr rfl fun h _ => by rw [hx, hw]

/-- So does a hidden entry. -/
theorem hidden_congr {T' I' : Nat} (x : Fin T → Fin H → EReal) (gw uw : Fin I → Fin H → EReal) (gs us : Fin I → EReal)
    (x' : Fin T' → Fin H → EReal) (gw' uw' : Fin I' → Fin H → EReal) (gs' us' : Fin I' → EReal)
    (t : Fin T) (i : Fin I) (t' : Fin T') (i' : Fin I')
    (hx : ∀ h, x' t' h = x t h) (hgw : ∀ h, gw' i' h = gw i h) (huw : ∀ h, uw' i' h = uw i h)
    (hgs : gs' i' = gs i) (hus : us' i' = us i) :
    hidden x' gw' uw' gs' us' t' i' = hidden x gw uw gs us t i := by
  unfold hidden
  rw [proj_congr x gw gs x' gw' gs' t i t' i' hx hgw hgs, proj_congr x uw us x' uw' us' t i t' i' hx huw hus]

/-! ## Blocks of the intermediate axis -/

/-- Channel `c` of block `k` of an axis of `n` channels cut into blocks of `C`: channel `C·k + c` (reduced mod
    `n` so that the function is total; for a block inside the axis the reduction does nothing). -/
def chan (n C : Nat) (hn : 0 < n) (k : Nat) (c : Fin C) : Fin n := ⟨(C * k + c.val) % n, Nat.mod_lt _ hn⟩

/-- The sum over the first `K` blocks, when the `K` blocks of `C` make up the axis, is the sum over the axis. -/
theorem sum_blocks {M : Type*} [AddCommMonoid M] (K C : Nat) (hn : 0 < K * C) (f : Fin (K * C) → M) :
    ∑ k ∈ Finset.range K, ∑ c : Fin C, f (chan (K * C) C hn k c) = ∑ i : Fin (K * C), f i := by
  rw [Cert.IndexSums.sum_fin_mul f, Finset.sum_range]
  refine Finset.sum_congr rfl fun a _ => Finset.sum_congr rfl fun b _ => ?_
  congr 1
  apply Fin.ext
  show (C * a.val + b.val) % (K * C) = (finProdFinEquiv (a, b)).val
  have ha := a.isLt
  have hb := b.isLt
  have hlt : C * a.val + b.val < K * C := by
    calc C * a.val + b.val < C * a.val + C := by omega
      _ = C * (a.val + 1) := by ring
      _ ≤ C * K := Nat.mul_le_mul_left _ ha
      _ = K * C := Nat.mul_comm _ _
  rw [Nat.mod_eq_of_lt hlt]
  simp [finProdFinEquiv]
  ring

/-- The running sum of a blocked evaluation: a zero, plus the first block's partial sum, is the sum over one block; -/
theorem running_first {M : Type*} [AddCommMonoid M] (p : Nat → M) : 0 + p 0 = ∑ k ∈ Finset.range (0 + 1), p k := by
  rw [zero_add, Finset.sum_range_one]

/-- and the sum over `j` blocks plus the next block's partial sum is the sum over `j + 1` blocks. -/
theorem running_next {M : Type*} [AddCommMonoid M] (p : Nat → M) (j : Nat) :
    (∑ k ∈ Finset.range j, p k) + p j = ∑ k ∈ Finset.range (j + 1), p k :=
  (Finset.sum_range_succ p j).symm

end Cert.GatedMlp

end
-- ==== Proof.RefIsSpec.lean ====
/-
  The reference program's value, entry by entry, is the gated two-layer perceptron of the specification.

  The reference flattens the token array to x : 4096 × 2048 and then computes, for a token t and a channel i,

    g t i = (∑ h, x t h · gw i h) · gs i            (a contraction over h, then a scale broadcast along the tokens)
    u t i = (∑ h, x t h · uw i h) · us i
    a t i = g t i · (1 / (1 + exp (−g t i)))        (the constant is the pattern of 1.0)
    m t i = a t i · u t i

  and, for an output channel o,  r t o = (∑ i, m t i · dw o i) · ds o.  Reading each operation at one index, the
  broadcasts read their operand at the channel coordinate alone and the contractions are sums over their one
  contracted coordinate; 1 / (1 + exp (−g)) is the logistic function of g by definition. So g and u are the
  specification's projections, m is its hidden activation, and r is its result, at every index.
-/
import Idealize.ShloMosaic.Lib.ValueIdx
import Idealize.ShloMosaic.PureOps.Ideal.Laws
import proofs.«175388_j4638564680470_2_alg».proof.Proof.Spec
import proofs.«175388_j4638564680470_2_alg».proof.Proof.Gen.ReferenceIdeal.Read

open scoped BigOperators

noncomputable section

namespace Cert.GatedMlp.Ref

open Idealize.ShloMosaic Idealize.ShloMosaic.ValueIdx Cert.ReferenceIdeal Cert.ReferenceIdeal.Read

/-- The bit pattern 0x3F800000 is the number one. -/
theorem one_bits : Ideal.ofBits .f32 0x3F800000#32 = 1 := by
  simp [Ideal.ofBits, Ideal.ieee, -EReal.coe_mul]; norm_num

variable (x0 : (⟨S2x2048x2048, .f32⟩ : BufTy).Contents (Elt Ideal))
  (x1 x2 : (⟨S5632x2048, .f32⟩ : BufTy).Contents (Elt Ideal))
  (x3 : (⟨S2048x5632, .f32⟩ : BufTy).Contents (Elt Ideal))
  (x4 x5 : (⟨S5632, .f32⟩ : BufTy).Contents (Elt Ideal))
  (x6 : (⟨S2048, .f32⟩ : BufTy).Contents (Elt Ideal))

/-- The gate projection: the first contraction times its broadcast scale. -/
theorem gate_eq (t : Fin 4096) (i : Fin 5632) :
    val_main_v4 (F := Ideal) x0 x1 x4 (ix2 t i)
      = proj (fun t h => val_main_v0 (F := Ideal) x0 (ix2 t h)) (fun i h => x1 (ix2 i h)) (fun i => x4 (ix1 i)) t i := by
  rw [val_main_v4_apply, val_main_v1_apply, val_main_v3_apply, val_main_v2_apply]
  have e1 : ∀ k : Fin 2048, lidx_main_v1 (ix2 t i) k = ix2 t k := fun k => funext fun a => Fin.ext (by
    match a with | ⟨0, _⟩ => rfl | ⟨1, _⟩ => rfl)
  have e2 : ∀ k : Fin 2048, ridx_main_v1 (ix2 t i) k = ix2 i k := fun k => funext fun a => Fin.ext (by
    match a with | ⟨0, _⟩ => rfl | ⟨1, _⟩ => rfl)
  have e3 : idx_main_v2 (idx_main_v3 (ix2 t i)) = ix1 i := funext fun a => Fin.ext (by
    match a with | ⟨0, _⟩ => rfl)
  simp only [e1, e2, e3, Ideal.mulf_def]
  rfl

/-- The up projection: the second contraction times its broadcast scale. -/
theorem up_eq (t : Fin 4096) (i : Fin 5632) :
    val_main_v8 (F := Ideal) x0 x2 x5 (ix2 t i)
      = proj (fun t h => val_main_v0 (F := Ideal) x0 (ix2 t h)) (fun i h => x2 (ix2 i h)) (fun i => x5 (ix1 i)) t i := by
  rw [val_main_v8_apply, val_main_v5_apply, val_main_v7_apply, val_main_v6_apply]
  have e1 : ∀ k : Fin 2048, lidx_main_v5 (ix2 t i) k = ix2 t k := fun k => funext fun a => Fin.ext (by
    match a with | ⟨0, _⟩ => rfl | ⟨1, _⟩ => rfl)
  have e2 : ∀ k : Fin 2048, ridx_main_v5 (ix2 t i) k = ix2 i k := fun k => funext fun a => Fin.ext (by
    match a with | ⟨0, _⟩ => rfl | ⟨1, _⟩ => rfl)
  have e3 : idx_main_v6 (idx_main_v7 (ix2 t i)) = ix1 i := funext fun a => Fin.ext (by
    match a with | ⟨0, _⟩ => rfl)
  simp only [e1, e2, e3, Ideal.mulf_def]
  rfl

/-- The activation: the gate times one over one plus the exponential of its negation, which is the gate times its
    logistic function. -/
theorem silu_eq (i : S4096x5632.Idx) :
    val_main_v9 (F := Ideal) x0 x1 x4 i
      = val_main_v4 (F := Ideal) x0 x1 x4 i * Ideal.logistic (val_main_v4 (F := Ideal) x0 x1 x4 i) := by
  rw [val_main_v9_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, one_bits]
  rfl

/-- The hidden activation: the activated gate times the up projection. -/
theorem hidden_eq (t : Fin 4096) (i : Fin 5632) :
    val_main_v10 (F := Ideal) x0 x1 x2 x4 x5 (ix2 t i)
      = hidden (fun t h => val_main_v0 (F := Ideal) x0 (ix2 t h)) (fun i h => x1 (ix2 i h)) (fun i h => x2 (ix2 i h))
          (fun i => x4 (ix1 i)) (fun i => x5 (ix1 i)) t i := by
  rw [val_main_v10_apply, silu_eq, gate_eq, up_eq]
  simp only [Ideal.mulf_def]
  rfl

/-- The reference's value before its last reshape is the specification over the flattened tokens. -/
theorem ref_eq :
    val_main_v14 (F := Ideal) x0 x1 x2 x3 x4 x5 x6
      = Cert.GatedMlp.mlpArr (val_main_v0 (F := Ideal) x0) x1 x2 x3 x4 x5 x6 := by
  funext j
  obtain ⟨t, o, rfl⟩ : ∃ (t : Fin 4096) (o : Fin 2048), j = ix2 t o := ⟨j 0, j 1, eq_ix2 j⟩
  rw [val_main_v14_apply, val_main_v11_apply, val_main_v13_apply, val_main_v12_apply]
  have e1 : ∀ k : Fin 5632, lidx_main_v11 (ix2 t o) k = ix2 t k := fun k => funext fun a => Fin.ext (by
    match a with | ⟨0, _⟩ => rfl | ⟨1, _⟩ => rfl)
  have e2 : ∀ k : Fin 5632, ridx_main_v11 (ix2 t o) k = ix2 o k := fun k => funext fun a => Fin.ext (by
    match a with | ⟨0, _⟩ => rfl | ⟨1, _⟩ => rfl)
  have e3 : idx_main_v12 (idx_main_v13 (ix2 t o)) = ix1 o := funext fun a => Fin.ext (by
    match a with | ⟨0, _⟩ => rfl)
  simp only [e1, e2, e3, Ideal.mulf_def, hidden_eq]
  rfl

/-- The reference's result is the specification over the flattened tokens, folded back to the tokens' shape. -/
theorem ref_result_eq :
    val_main_v15 (F := Ideal) x0 x1 x2 x3 x4 x5 x6
      = shapeCast _ (Cert.GatedMlp.mlpArr (shapeCast _ x0 Cert.ReferenceIdeal.Facts₀.shapeCasts_S2x2048x2048_S4096x2048)
          x1 x2 x3 x4 x5 x6) Cert.ReferenceIdeal.Facts₀.shapeCasts_S4096x2048_S2x2048x2048 := by
  unfold val_main_v15
  rw [ref_eq]
  rfl

end Cert.GatedMlp.Ref

end
-- ==== Proof.Pieces.lean ====
/-
  What each control case of the kernel body leaves behind, as values.

  The body keeps a running sum in a scratch block. At the first block of the intermediate axis it stores zeros and
  then the zeros plus the block's partial product; at every later block it stores what it found plus the block's
  partial product; at the last block it also stores the running sum times the output scales into the output block.
  Each store covers its whole buffer, so what a case leaves in a buffer is the last store's value, with every load
  of a whole buffer replaced by that buffer's contents.
-/
import proofs.«175388_j4638564680470_2_alg».proof.Proof.Gen.KernelIdeal.Frame
import Idealize.ShloMosaic.Lib.Pipeline.Value
import Idealize.ShloMosaic.Lib.Tactic

set_option maxRecDepth 16384

noncomputable section

namespace Cert.GatedMlp.Kernel

open Cert.KernelIdeal Cert.KernelIdeal.Gen
open Idealize.ShloMosaic Idealize.ShloMosaic.TcCoe Idealize.ShloMosaic.Tactic Idealize.SL.Sem

variable {F : FTy → Type} [FloatOps F]

/-- The zero offset of every access in the body. -/
theorem hz : (![0, 0] : Fin 2 → Nat) = fun _ => 0 := funext fun a => by fin_cases a <;> rfl

/-- A middle block: the scratch ends at what it held plus the block's partial product. -/
theorem scratch_B (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i)
    (x0 : Vec F S512x2048 .bf16) (x1 : Vec F S512x2048 .bf16) (x2 : Vec F S512x2048 .bf16) (x3 : Vec F S2048x512 .bf16) (x4 : Vec F S1x512 .f32) (x5 : Vec F S1x512 .f32) (x6 : Vec F S1x2048 .f32) (xs0 : Vec F S512x2048 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay3 x0 x1 x2 x4 x5 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero hz]
  simp only [View.readAt_eq_ld, harg2.read_unread, harg3.read_unread, harg4.read_unread, harg5.read_unread, harg6.read_unread,
    harg7.read_unread, harg8.read_unread, harg9.read_unread, harg10.read_unread, View.ld_unit_zero (S := S512x2048) hz, View.ld_unit_zero (S := S1x512) hz,
    View.ld_unit_zero (S := S2048x512) hz, View.ld_unit_zero (S := S1x2048) hz]

/-- The last block: the scratch ends the same way, -/
theorem scratch_C (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x2048 .bf16) (x2 : Vec F S512x2048 .bf16) (x3 : Vec F S2048x512 .bf16) (x4 : Vec F S1x512 .f32) (x5 : Vec F S1x512 .f32) (x6 : Vec F S1x2048 .f32) (xs0 : Vec F S512x2048 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay3 x0 x1 x2 x4 x5 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, View.ld_unit_zero (S := S512x2048) hz, View.ld_unit_zero (S := S1x512) hz,
    View.ld_unit_zero (S := S2048x512) hz, View.ld_unit_zero (S := S1x2048) hz]

/-- and the output block is that running sum times the output scales. -/
theorem out_C (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x2048 .bf16) (x1 : Vec F S512x2048 .bf16) (x2 : Vec F S512x2048 .bf16) (x3 : Vec F S2048x512 .bf16) (x4 : Vec F S1x512 .f32) (x5 : Vec F S1x512 .f32) (x6 : Vec F S1x2048 .f32) (xs0 : Vec F S512x2048 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay1 (k0_pay3 x0 x1 x2 x4 x5 x3 xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread, harg6.read_unread,
    harg7.read_unread, harg8.read_unread, harg9.read_unread, harg10.read_unread, View.ld_unit_zero (S := S512x2048) hz, View.ld_unit_zero (S := S1x512) hz,
    View.ld_unit_zero (S := S2048x512) hz, View.ld_unit_zero (S := S1x2048) hz]

/-- The first block: the scratch ends at the zeros plus the block's partial product. -/
theorem scratch_A (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i)
    (x0 : Vec F S512x2048 .bf16) (x1 : Vec F S512x2048 .bf16) (x2 : Vec F S512x2048 .bf16) (x3 : Vec F S2048x512 .bf16) (x4 : Vec F S1x512 .f32) (x5 : Vec F S1x512 .f32) (x6 : Vec F S1x2048 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay3 x0 x1 x2 x4 x5 x3 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread,
    harg7.read_unread, harg8.read_unread, harg9.read_unread, harg10.read_unread, View.ld_unit_zero (S := S512x2048) hz, View.ld_unit_zero (S := S1x512) hz,
    View.ld_unit_zero (S := S2048x512) hz, View.ld_unit_zero (S := S1x2048) hz]

end Cert.GatedMlp.Kernel

end
-- ==== Proof.Steps.lean ====
/-
  The running sum, one grid point at a time.

  The grid runs over token tiles (outer) and blocks of the intermediate axis (inner), eleven blocks per token tile.
  What the scratch block holds after a point is: at the first block of a token tile, the zeros plus that block's
  partial product; at any later block, what the point before left plus this block's partial product. At the last
  block the output block is the running sum times the output scales. Here these three facts are read off the
  recursion that defines the buffers' contents point by point, with the blocks each point reads named.
-/
import proofs.«175388_j4638564680470_2_alg».proof.Proof.Pieces

set_option maxRecDepth 16384

noncomputable section

namespace Cert.GatedMlp.Kernel

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- At the first block of a token tile the scratch ends at the zeros plus the block's partial product. -/
theorem scratch_first (c : Dev nD) (t : Fin cfg0.N) (h0 : t.val % 11 = 0) (h1 : ¬t.val % 11 = 10) :
    (outsAt0 m c t.val t.isLt).2 = k0_pay3 (iblk m c 0 t) (iblk m c 1 t) (iblk m c 2 t) (iblk m c 4 t) (iblk m c 5 t) (iblk m c 3 t) k0_pay2 := by
  rw [outsAt0_A m c t h0 h1]
  dsimp only
  exact scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- At a middle block it ends at what the point before left plus the block's partial product. -/
theorem scratch_middle (c : Dev nD) (t : Fin cfg0.N) (h0 : ¬t.val % 11 = 0) (h1 : ¬t.val % 11 = 10) :
    (outsAt0 m c t.val t.isLt).2 = k0_pay3 (iblk m c 0 t) (iblk m c 1 t) (iblk m c 2 t) (iblk m c 4 t) (iblk m c 5 t) (iblk m c 3 t) (outsAt0 m c (t.val - 1) (Nat.lt_of_le_of_lt (Nat.sub_le _ _) t.isLt)).2 := by
  rw [outsAt0_B m c t h0 h1]
  dsimp only
  exact scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- At the last block likewise, -/
theorem scratch_last (c : Dev nD) (t : Fin cfg0.N) (h0 : ¬t.val % 11 = 0) (h1 : t.val % 11 = 10) :
    (outsAt0 m c t.val t.isLt).2 = k0_pay3 (iblk m c 0 t) (iblk m c 1 t) (iblk m c 2 t) (iblk m c 4 t) (iblk m c 5 t) (iblk m c 3 t) (outsAt0 m c (t.val - 1) (Nat.lt_of_le_of_lt (Nat.sub_le _ _) t.isLt)).2 := by
  rw [outsAt0_C m c t h0 h1]
  dsimp only
  exact scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- and the output block is the running sum times the output scales. -/
theorem out_last (c : Dev nD) (t : Fin cfg0.N) (h0 : ¬t.val % 11 = 0) (h1 : t.val % 11 = 10) :
    (outsAt0 m c t.val t.isLt).1 = k0_pay1 (k0_pay3 (iblk m c 0 t) (iblk m c 1 t) (iblk m c 2 t) (iblk m c 4 t) (iblk m c 5 t) (iblk m c 3 t) (outsAt0 m c (t.val - 1) (Nat.lt_of_le_of_lt (Nat.sub_le _ _) t.isLt)).2) (iblk m c 6 t) := by
  rw [outsAt0_C m c t h0 h1]
  dsimp only
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

end Cert.GatedMlp.Kernel

end
-- ==== Proof.Payload.lean ====
/-
  The three values the kernel body stores, read entry by entry over the extended reals (every float operation the
  exact one, a change of float format the identity).

  The body holds a block of T = 512 tokens and, at each step, a block of C = 512 intermediate channels. With x the
  token block [512, 2048], gw and uw the step's rows of the two input weight matrices [512, 2048], gs and us their
  scales [1, 512], dw the step's columns of the output weight matrix [2048, 512], acc the running sum [512, 2048] and
  ds the output scales [1, 2048]:

    the first step's store      (p, q) ↦ 0
    every step's store          (p, q) ↦ acc (p, q) + ∑ c < 512, hidden (p, c) · dw (q, c)
    the last step's store       (p, q) ↦ acc (p, q) · ds (0, q)

  where hidden (p, c) = g · σ(g) · u with g = (∑ h < 2048, x (p, h) · gw (c, h)) · gs (0, c) and
  u = (∑ h < 2048, x (p, h) · uw (c, h)) · us (0, c): the specification's `hidden` of the blocks.

  Both matrix products contract the second axis of the left operand with the second axis of the right one, so entry
  (r, c) of a product is ∑ k, lhs (r, k) · rhs (c, k); each is accumulated onto a zero array, which adds nothing. A row
  vector [1, b] spread over [a, b] reads its one row; a reshape of a shape to itself changes nothing.
-/
import proofs.«175388_j4638564680470_2_alg».proof.Proof.Spec
import proofs.«175388_j4638564680470_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.GatedMlp.Kernel

open Cert.KernelIdeal Cert.KernelIdeal.Gen Idealize.ShloMosaic Idealize.ShloMosaic.ValueIdx Cert.GatedMlp

/-! ## The two contractions, entry by entry

For each of the two products: the four coordinate equations of its operand indices (the kept axis is the result's
coordinate, the contracted axis is the contraction position), then the entry as a sum over `Fin K`. -/

/-- [512, 2048] × [512, 2048] → [512, 512]: the left operand's row is the result's row, -/
theorem lhsUp_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
/-- its column is the contraction position; -/
theorem lhsUp_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
/-- the right operand's row is the result's column, -/
theorem rhsUp_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- its column is the contraction position. -/
theorem rhsUp_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- So entry (p, c) of the product onto a zero is ∑ k < 2048, a (p, k) · b (c, k). -/
theorem matmulUp_apply (a : FVec Ideal S512x2048 .bf16) (b : FVec Ideal S512x2048 .bf16) (p : Fin 512) (c : Fin 512) :
    matmul dot_S512x2048_S512x2048_S512x512_1_1_0_0_n_n none a b (constant (F := Ideal) S512x512 .f32 0x00000000#32) (ix2 p c)
      = ∑ k : Fin 2048, a (ix2 p k) * b (ix2 c k) := by
  show FloatOps.matmul dot_S512x2048_S512x2048_S512x512_1_1_0_0_n_n none a b (constant (F := Ideal) S512x512 .f32 0x00000000#32) (ix2 p c) = _
  rw [Ideal.matmul_constant_zero_apply, ← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ix2 p c) ((ValueIdx.contrEquiv1 dot_S512x2048_S512x2048_S512x512_1_1_0_0_n_n 2048 rfl rfl).symm k) = ix2 p k := funext fun a => Fin.ext (by
    match a with
    | ⟨0, _⟩ => exact lhsUp_0 _ _
    | ⟨1, _⟩ => exact (lhsUp_1 _ _).trans hk)
  have er : dot_S512x2048_S512x2048_S512x512_1_1_0_0_n_n.rhsIdx (ix2 p c) ((ValueIdx.contrEquiv1 dot_S512x2048_S512x2048_S512x512_1_1_0_0_n_n 2048 rfl rfl).symm k) = ix2 c k := funext fun a => Fin.ext (by
    match a with
    | ⟨0, _⟩ => exact rhsUp_0 _ _
    | ⟨1, _⟩ => exact (rhsUp_1 _ _).trans hk)
  rw [el, er]

/-- [512, 512] × [2048, 512] → [512, 2048]: the left operand's row is the result's row, -/
theorem lhsDown_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
/-- its column is the contraction position; -/
theorem lhsDown_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
/-- the right operand's row is the result's column, -/
theorem rhsDown_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
/-- its column is the contraction position. -/
theorem rhsDown_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- So entry (p, c) of the product onto a zero is ∑ k < 512, a (p, k) · b (c, k). -/
theorem matmulDown_apply (a : FVec Ideal S512x512 .bf16) (b : FVec Ideal S2048x512 .bf16) (p : Fin 512) (c : Fin 2048) :
    matmul dot_S512x512_S2048x512_S512x2048_1_1_0_0_n_n none a b (constant (F := Ideal) S512x2048 .f32 0x00000000#32) (ix2 p c)
      = ∑ k : Fin 512, a (ix2 p k) * b (ix2 c k) := by
  show FloatOps.matmul dot_S512x512_S2048x512_S512x2048_1_1_0_0_n_n none a b (constant (F := Ideal) S512x2048 .f32 0x00000000#32) (ix2 p c) = _
  rw [Ideal.matmul_constant_zero_apply, ← Equiv.sum_comp (ValueIdx.contrEquiv1 dot_S512x512_S2048x512_S512x2048_1_1_0_0_n_n 512 rfl rfl).symm]
  refine Finset.sum_congr rfl fun k _ => ?_
  have hk := ValueIdx.contrEquiv1_symm_val dot_S512x512_S2048x512_S512x2048_1_1_0_0_n_n 512 rfl rfl k
  have el : dot_S512x512_S2048x512_S512x2048_1_1_0_0_n_n.lhsIdx (ix2 p c) ((ValueIdx.contrEquiv1 dot_S512x512_S2048x512_S512x2048_1_1_0_0_n_n 512 rfl rfl).symm k) = ix2 p k := funext fun a => Fin.ext (by
    match a with
    | ⟨0, _⟩ => exact lhsDown_0 _ _
    | ⟨1, _⟩ => exact (lhsDown_1 _ _).trans hk)
  have er : dot_S512x512_S2048x512_S512x2048_1_1_0_0_n_n.rhsIdx (ix2 p c) ((ValueIdx.contrEquiv1 dot_S512x512_S2048x512_S512x2048_1_1_0_0_n_n 512 rfl rfl).symm k) = ix2 c k := funext fun a => Fin.ext (by
    match a with
    | ⟨0, _⟩ => exact rhsDown_0 _ _
    | ⟨1, _⟩ => exact (rhsDown_1 _ _).trans hk)
  rw [el, er]

/-! ## The payloads -/

/-- The logistic function of an array is taken entry by entry. -/
theorem logistic_apply {s : Shape} {φ : FTy} (a : FVec Ideal s φ) (i : s.Idx) : logistic a i = Ideal.logistic (a i) := rfl

/-- A product of the token block with a weight block, times the scale row spread over the tokens, is the
    specification's scaled projection of the blocks. -/
theorem scaledProj_apply (x w : FVec Ideal S512x2048 .bf16) (s : FVec Ideal S1x512 .f32) (p c : Fin 512) :
    mulf (matmul dot_S512x2048_S512x2048_S512x512_1_1_0_0_n_n none x w (constant (F := Ideal) S512x512 .f32 0x00000000#32))
        (broadcastTo S512x512 s broadcasts_S1x512_S512x512) (ix2 p c)
      = proj (fun p h => x (ix2 p h)) (fun i h => w (ix2 i h)) (fun i => s (ix2 (0 : Fin 1) i)) p c := by
  rw [mulf_apply, matmulUp_apply, broadcastTo_1b_ab_apply]
  rfl

/-- The first step's store: zero everywhere. -/
theorem pay2_apply (j : S512x2048.Idx) : k0_pay2 (F := Ideal) j = 0 := by
  unfold k0_pay2
  rw [shapeCast_self]
  exact Ideal.ofBits_zero_f32

/-- The last step's store: the running sum times the output channel's scale. -/
theorem pay1_apply (acc : Vec Ideal S512x2048 .f32) (ds : Vec Ideal S1x2048 .f32) (p : Fin 512) (q : Fin 2048) :
    k0_pay1 (F := Ideal) acc ds (ix2 p q) = acc (ix2 p q) * ds (ix2 (0 : Fin 1) q) := by
  unfold k0_pay1
  rw [shapeCast_self]
  exact congrArg (acc (ix2 p q) * ·) (broadcastTo_1b_ab_apply ds broadcasts_S1x2048_S512x2048 p q)

/-- Every step's store: the running sum plus the step's partial sum of hidden activation times output weight over
    the step's 512 channels. -/
theorem pay3_apply (x gw uw : Vec Ideal S512x2048 .bf16) (gs us : Vec Ideal S1x512 .f32) (dw : Vec Ideal S2048x512 .bf16)
    (acc : Vec Ideal S512x2048 .f32) (p : Fin 512) (q : Fin 2048) :
    k0_pay3 (F := Ideal) x gw uw gs us dw acc (ix2 p q)
      = acc (ix2 p q) + ∑ c : Fin 512, hidden (fun p h => x (ix2 p h)) (fun i h => gw (ix2 i h)) (fun i h => uw (ix2 i h))
          (fun i => gs (ix2 (0 : Fin 1) i)) (fun i => us (ix2 (0 : Fin 1) i)) p c * dw (ix2 q c) := by
  unfold k0_pay3
  simp only [shapeCast_self]
  rw [addf_apply, matmulDown_apply]
  refine congrArg (acc (ix2 p q) + ·) (Finset.sum_congr rfl fun c _ => ?_)
  refine congrArg (· * dw (ix2 q c)) ?_
  rw [truncf_apply, mulf_apply, mulf_apply, logistic_apply, scaledProj_apply, scaledProj_apply]
  rfl

end Cert.GatedMlp.Kernel

end
-- ==== Proof.Entry.lean ====
/-
  Which entries of which array each block of the kernel is, and what those arrays hold when the region is entered.

  The grid has 8 × 11 points; point t has coordinates (t / 11, t % 11): a block of 512 tokens and a block of 512
  intermediate channels. At point t the kernel reads
    · rows 512·(t / 11) … + 511 of the token array (all 2048 columns),
    · rows 512·(t % 11) … + 511 of the gate and of the up weight arrays (all 2048 columns),
    · columns 512·(t % 11) … + 511 of the down weight array (all 2048 rows),
    · entries 512·(t % 11) … + 511 of the gate and of the up scale rows,
    · the whole down scale row.
  A block's coordinate in its array is always (block index) × (block size) + (coordinate inside the block); the block
  indices are the printed index maps, decided once over the 88 points.

  The arrays themselves are written by the operations before the region: the token array is the argument flattened
  to 4096 × 2048 and narrowed, the weight arrays are the arguments narrowed, the scale rows are the arguments
  reshaped to one row. Over the extended reals narrowing is the identity, so each array read at an index is the
  argument read at the matching index.
-/
import proofs.«175388_j4638564680470_2_alg».proof.Proof.Gen.KernelIdeal.Frame
import proofs.«175388_j4638564680470_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.GatedMlp.Kernel

open Cert.KernelIdeal Cert.KernelIdeal.Gen Idealize.ShloMosaic Idealize.ShloMosaic.TcCoe Idealize.ShloMosaic.ValueIdx
  Idealize.SL.Sem Cert.GatedMlp

/-! ## The printed index maps over the grid -/

/-- The block index of each window at point t: the tokens' and the output's block is t / 11, the weights' and the
    gate and up scales' block is t % 11 (along the intermediate axis), the down scales' block is the only one. -/
theorem idx_facts : ∀ t : Fin cfg0.N, win0_0.index t (0 : Fin 2) = t.val / 11 ∧ win0_0.index t (1 : Fin 2) = 0
    ∧ win0_1.index t (0 : Fin 2) = t.val % 11 ∧ win0_1.index t (1 : Fin 2) = 0
    ∧ win0_2.index t (0 : Fin 2) = t.val % 11 ∧ win0_2.index t (1 : Fin 2) = 0
    ∧ win0_3.index t (0 : Fin 2) = 0 ∧ win0_3.index t (1 : Fin 2) = t.val % 11
    ∧ win0_4.index t (0 : Fin 2) = 0 ∧ win0_4.index t (1 : Fin 2) = t.val % 11
    ∧ win0_5.index t (0 : Fin 2) = 0 ∧ win0_5.index t (1 : Fin 2) = t.val % 11
    ∧ win0_6.index t (0 : Fin 2) = 0 ∧ win0_6.index t (1 : Fin 2) = 0
    ∧ win0_7.index t (0 : Fin 2) = t.val / 11 ∧ win0_7.index t (1 : Fin 2) = 0 :=
  (by decide +kernel : ∀ t : Fin grid0.N, _)

/-- The grid has 88 points, as a bound on a point's number. -/
theorem point_lt (t : Fin cfg0.N) : t.val < 88 := by
  have h := t.isLt
  have hN : cfg0.N = 88 := N_0
  omega

/-! ## The blocks a grid point reads -/

section Blocks

variable {F : FTy → Type} [FloatOps F] (m : (ℓ : Loc nD τ sig) → Buf (Elt F) ℓ) (c : Dev nD) (t : Fin cfg0.N)

/-- Window 0's block at point t is rows 512·(t / 11) … of the token array. -/
theorem blk_x (p : Fin 512) (h : Fin 2048) :
    (iblk m c 0 t : Vec F S512x2048 .bf16) (ix2 p h)
      = V m c main_v1 (ix2 (chan 4096 512 (by decide) (t.val / 11) p) h) := by
  obtain ⟨e00, e01, -⟩ := idx_facts t
  have ht := point_lt t
  show V m c main_v1 (((cfg0.win 0).blk t).view.emb (ix2 p h)) = _
  congr 1
  funext a; apply Fin.ext
  match a with
  | ⟨0, _⟩ =>
    show win0_0.index t (0 : Fin 2) * 512 + 1 * p.val = (512 * (t.val / 11) + p.val) % 4096
    have hp := p.isLt
    rw [e00]; omega
  | ⟨1, _⟩ =>
    show win0_0.index t (1 : Fin 2) * 2048 + 1 * h.val = h.val
    rw [e01]; omega

/-- Window 1's block at point t is rows 512·(t % 11) … of the gate weight array. -/
theorem blk_gw (i : Fin 512) (h : Fin 2048) :
    (iblk m c 1 t : Vec F S512x2048 .bf16) (ix2 i h)
      = V m c main_v2 (ix2 (chan 5632 512 (by decide) (t.val % 11) i) h) := by
  obtain ⟨-, -, e10, e11, -⟩ := idx_facts t
  have ht := point_lt t
  show V m c main_v2 (((cfg0.win 1).blk t).view.emb (ix2 i h)) = _
  congr 1
  funext a; apply Fin.ext
  match a with
  | ⟨0, _⟩ =>
    show win0_1.index t (0 : Fin 2) * 512 + 1 * i.val = (512 * (t.val % 11) + i.val) % 5632
    have hi := i.isLt
    rw [e10]; omega
  | ⟨1, _⟩ =>
    show win0_1.index t (1 : Fin 2) * 2048 + 1 * h.val = h.val
    rw [e11]; omega

/-- Window 2's block at point t is rows 512·(t % 11) … of the up weight array. -/
theorem blk_uw (i : Fin 512) (h : Fin 2048) :
    (iblk m c 2 t : Vec F S512x2048 .bf16) (ix2 i h)
      = V m c main_v3 (ix2 (chan 5632 512 (by decide) (t.val % 11) i) h) := by
  obtain ⟨-, -, -, -, e20, e21, -⟩ := idx_facts t
  have ht := point_lt t
  show V m c main_v3 (((cfg0.win 2).blk t).view.emb (ix2 i h)) = _
  congr 1
  funext a; apply Fin.ext
  match a with
  | ⟨0, _⟩ =>
    show win0_2.index t (0 : Fin 2) * 512 + 1 * i.val = (512 * (t.val % 11) + i.val) % 5632
    have hi := i.isLt
    rw [e20]; omega
  | ⟨1, _⟩ =>
    show win0_2.index t (1 : Fin 2) * 2048 + 1 * h.val = h.val
    rw [e21]; omega

/-- Window 3's block at point t is columns 512·(t % 11) … of the down weight array. -/
theorem blk_dw (o : Fin 2048) (i : Fin 512) :
    (iblk m c 3 t : Vec F S2048x512 .bf16) (ix2 o i)
      = V m c main_v4 (ix2 o (chan 5632 512 (by decide) (t.val % 11) i)) := by
  obtain ⟨-, -, -, -, -, -, e30, e31, -⟩ := idx_facts t
  have ht := point_lt t
  show V m c main_v4 (((cfg0.win 3).blk t).view.emb (ix2 o i)) = _
  congr 1
  funext a; apply Fin.ext
  match a with
  | ⟨0, _⟩ =>
    show win0_3.index t (0 : Fin 2) * 2048 + 1 * o.val = o.val
    rw [e30]; omega
  | ⟨1, _⟩ =>
    show win0_3.index t (1 : Fin 2) * 512 + 1 * i.val = (512 * (t.val % 11) + i.val) % 5632
    have hi := i.isLt
    rw [e31]; omega

/-- Window 4's block at point t is entries 512·(t % 11) … of the gate scale row. -/
theorem blk_gs (i : Fin 512) :
    (iblk m c 4 t : Vec F S1x512 .f32) (ix2 (0 : Fin 1) i)
      = V m c main_v5 (ix2 (0 : Fin 1) (chan 5632 512 (by decide) (t.val % 11) i)) := by
  obtain ⟨-, -, -, -, -, -, -, -, e40, e41, -⟩ := idx_facts t
  have ht := point_lt t
  show V m c main_v5 (((cfg0.win 4).blk t).view.emb (ix2 (0 : Fin 1) i)) = _
  congr 1
  funext a; apply Fin.ext
  match a with
  | ⟨0, _⟩ =>
    show win0_4.index t (0 : Fin 2) * 1 + 1 * 0 = 0
    rw [e40]
  | ⟨1, _⟩ =>
    show win0_4.index t (1 : Fin 2) * 512 + 1 * i.val = (512 * (t.val % 11) + i.val) % 5632
    have hi := i.isLt
    rw [e41]; omega

/-- Window 5's block at point t is entries 512·(t % 11) … of the up scale row. -/
theorem blk_us (i : Fin 512) :
    (iblk m c 5 t : Vec F S1x512 .f32) (ix2 (0 : Fin 1) i)
      = V m c main_v6 (ix2 (0 : Fin 1) (chan 5632 512 (by decide) (t.val % 11) i)) := by
  obtain ⟨-, -, -, -, -, -, -, -, -, -, e50, e51, -⟩ := idx_facts t
  have ht := point_lt t
  show V m c main_v6 (((cfg0.win 5).blk t).view.emb (ix2 (0 : Fin 1) i)) = _
  congr 1
  funext a; apply Fin.ext
  match a with
  | ⟨0, _⟩ =>
    show win0_5.index t (0 : Fin 2) * 1 + 1 * 0 = 0
    rw [e50]
  | ⟨1, _⟩ =>
    show win0_5.index t (1 : Fin 2) * 512 + 1 * i.val = (512 * (t.val % 11) + i.val) % 5632
    have hi := i.isLt
    rw [e51]; omega

/-- Window 6's block at every point is the whole down scale row. -/
theorem blk_ds (o : Fin 2048) :
    (iblk m c 6 t : Vec F S1x2048 .f32) (ix2 (0 : Fin 1) o) = V m c main_v7 (ix2 (0 : Fin 1) o) := by
  obtain ⟨-, -, -, -, -, -, -, -, -, -, -, -, e60, e61, -⟩ := idx_facts t
  show V m c main_v7 (((cfg0.win 6).blk t).view.emb (ix2 (0 : Fin 1) o)) = _
  congr 1
  funext a; apply Fin.ext
  match a with
  | ⟨0, _⟩ =>
    show win0_6.index t (0 : Fin 2) * 1 + 1 * 0 = 0
    rw [e60]
  | ⟨1, _⟩ =>
    show win0_6.index t (1 : Fin 2) * 2048 + 1 * o.val = o.val
    rw [e61]; omega

end Blocks

/-! ## The arrays as the region finds them -/

section Entry

variable (m : (ℓ : Loc nD τ sig) → Buf (Elt Ideal) ℓ) (c : Dev nD)

/-- The token array at region entry is the argument flattened to 4096 × 2048 (narrowing is the identity here). -/
theorem entry_x (t : Fin 4096) (h : Fin 2048) :
    V m c main_v1 (ix2 t h)
      = shapeCast S4096x2048 (m ((c : Thread nD τ).loc main_arg0)) shapeCasts_S2x2048x2048_S4096x2048 (ix2 t h) := by
  have e : @Eq (FVec Ideal S4096x2048 .bf16) (V m c main_v1)
      (truncf .bf16 (shapeCast S4096x2048 (m ((c : Thread nD τ).loc main_arg0)) shapeCasts_S2x2048x2048_S4096x2048)
          bitsLt_bf16_f32) := by
    show StableHlo.after hostOps0 (fun b => m (c, b)) (Proc.devRef .tc main_v1) = _
    after_results; rfl
  exact congrFun e (ix2 t h)

/-- The gate weight array at region entry is the argument (narrowing is the identity here). -/
theorem entry_gw (i : Fin 5632) (h : Fin 2048) :
    V m c main_v2 (ix2 i h) = m ((c : Thread nD τ).loc main_arg1) (ix2 i h) := by
  have e : @Eq (FVec Ideal S5632x2048 .bf16) (V m c main_v2)
      (truncf .bf16 (m ((c : Thread nD τ).loc main_arg1) : FVec Ideal S5632x2048 .f32) bitsLt_bf16_f32) := by
    show StableHlo.after hostOps0 (fun b => m (c, b)) (Proc.devRef .tc main_v2) = _
    after_results
  exact congrFun e (ix2 i h)

/-- The up weight array at region entry is the argument. -/
theorem entry_uw (i : Fin 5632) (h : Fin 2048) :
    V m c main_v3 (ix2 i h) = m ((c : Thread nD τ).loc main_arg2) (ix2 i h) := by
  have e : @Eq (FVec Ideal S5632x2048 .bf16) (V m c main_v3)
      (truncf .bf16 (m ((c : Thread nD τ).loc main_arg2) : FVec Ideal S5632x2048 .f32) bitsLt_bf16_f32) := by
    show StableHlo.after hostOps0 (fun b => m (c, b)) (Proc.devRef .tc main_v3) = _
    after_results
  exact congrFun e (ix2 i h)

/-- The down weight array at region entry is the argument. -/
theorem entry_dw (o : Fin 2048) (i : Fin 5632) :
    V m c main_v4 (ix2 o i) = m ((c : Thread nD τ).loc main_arg3) (ix2 o i) := by
  have e : @Eq (FVec Ideal S2048x5632 .bf16) (V m c main_v4)
      (truncf .bf16 (m ((c : Thread nD τ).loc main_arg3) : FVec Ideal S2048x5632 .f32) bitsLt_bf16_f32) := by
    show StableHlo.after hostOps0 (fun b => m (c, b)) (Proc.devRef .tc main_v4) = _
    after_results
  exact congrFun e (ix2 o i)

/-- The gate scale row at region entry is the argument as one row. -/
theorem entry_gs (i : Fin 5632) :
    V m c main_v5 (ix2 (0 : Fin 1) i) = m ((c : Thread nD τ).loc main_arg4) (ix1 i) := by
  have e : (V m c main_v5 : S1x5632.Idx → EReal)
      = shapeCast S1x5632 (m ((c : Thread nD τ).loc main_arg4)) shapeCasts_S5632_S1x5632 := by
    show StableHlo.after hostOps0 (fun b => m (c, b)) (Proc.devRef .tc main_v5) = _
    after_results; rfl
  rw [e]
  exact shapeCast_a_1a_apply _ _ 0 i

/-- The up scale row at region entry is the argument as one row. -/
theorem entry_us (i : Fin 5632) :
    V m c main_v6 (ix2 (0 : Fin 1) i) = m ((c : Thread nD τ).loc main_arg5) (ix1 i) := by
  have e : (V m c main_v6 : S1x5632.Idx → EReal)
      = shapeCast S1x5632 (m ((c : Thread nD τ).loc main_arg5)) shapeCasts_S5632_S1x5632 := by
    show StableHlo.after hostOps0 (fun b => m (c, b)) (Proc.devRef .tc main_v6) = _
    after_results; rfl
  rw [e]
  exact shapeCast_a_1a_apply _ _ 0 i

/-- The down scale row at region entry is the argument as one row. -/
theorem entry_ds (o : Fin 2048) :
    V m c main_v7 (ix2 (0 : Fin 1) o) = m ((c : Thread nD τ).loc main_arg6) (ix1 o) := by
  have e : (V m c main_v7 : S1x2048.Idx → EReal)
      = shapeCast S1x2048 (m ((c : Thread nD τ).loc main_arg6)) shapeCasts_S2048_S1x2048 := by
    show StableHlo.after hostOps0 (fun b => m (c, b)) (Proc.devRef .tc main_v7) = _
    after_results; rfl
  rw [e]
  exact shapeCast_a_1a_apply _ _ 0 o

end Entry

end Cert.GatedMlp.Kernel

end
-- ==== Proof.Accum.lean ====
/-
  The running sum over the grid is the blocked evaluation of the gated perceptron.

  Name the seven arrays the region finds by their coordinates: tokens x, gate and up weights gw, uw, down weights dw,
  and the three scale rows gs, us, ds. Point t of the grid works on token tile t / 11 and on block t % 11 of the
  intermediate axis; the blocks it reads are rows 512·(t / 11) … of x, rows 512·(t % 11) … of gw and uw, columns
  512·(t % 11) … of dw, and the matching entries of gs and us. Call part k the partial product of block k,
      part k (p, q) = ∑_{i < 512} hidden (512·tile + p, 512·k + i) · dw (q, 512·k + i).
  Then after the point at block j the scratch block holds ∑_{k ≤ j} part k: the first block adds part 0 to zero,
  every later block adds its part to what the point before left. After block 10 all eleven parts are in, which is
  the whole sum over the 5632 intermediate channels, and the output block is that sum times ds: the perceptron's
  entry. Only commutativity and associativity of addition on the extended reals are used.
-/
import proofs.«175388_j4638564680470_2_alg».proof.Proof.Steps
import proofs.«175388_j4638564680470_2_alg».proof.Proof.Payload
import proofs.«175388_j4638564680470_2_alg».proof.Proof.Entry

set_option maxRecDepth 16384

open scoped BigOperators

noncomputable section

namespace Cert.GatedMlp.Kernel

open Cert.KernelIdeal Cert.KernelIdeal.Gen
open Idealize.ShloMosaic Idealize.ShloMosaic.TcCoe Idealize.ShloMosaic.ValueIdx Idealize.SL.Sem Cert.GatedMlp

variable (m : (ℓ : Loc nD τ sig) → Buf (Elt Ideal) ℓ) (c : Dev nD)

/-! ## The arrays the region finds, by coordinates -/

/-- The tokens, [4096, 2048]. -/
def tokens : Fin 4096 → Fin 2048 → EReal := fun t h => V m c main_v1 (ix2 t h)
/-- The gate weights, [5632, 2048]. -/
def gateW : Fin 5632 → Fin 2048 → EReal := fun i h => V m c main_v2 (ix2 i h)
/-- The up weights, [5632, 2048]. -/
def upW : Fin 5632 → Fin 2048 → EReal := fun i h => V m c main_v3 (ix2 i h)
/-- The down weights, [2048, 5632]. -/
def downW : Fin 2048 → Fin 5632 → EReal := fun o i => V m c main_v4 (ix2 o i)
/-- The gate scales, one row [1, 5632]. -/
def gateS : Fin 5632 → EReal := fun i => V m c main_v5 (ix2 (0 : Fin 1) i)
/-- The up scales, one row [1, 5632]. -/
def upS : Fin 5632 → EReal := fun i => V m c main_v6 (ix2 (0 : Fin 1) i)
/-- The down scales, one row [1, 2048]. -/
def downS : Fin 2048 → EReal := fun o => V m c main_v7 (ix2 (0 : Fin 1) o)

theorem h4096 : 0 < 4096 := by decide
theorem h5632 : 0 < 5632 := by decide

/-- Block `k`'s partial product for token tile `tile`, at entry (p, q) of the tile's output block. -/
def part (tile k : ℕ) (p : Fin 512) (q : Fin 2048) : EReal :=
  ∑ i : Fin 512, hidden (tokens m c) (gateW m c) (upW m c) (gateS m c) (upS m c) (chan 4096 512 h4096 tile p) (chan 5632 512 h5632 k i)
    * downW m c q (chan 5632 512 h5632 k i)

/-! ## What a point adds -/

/-- For blocks that are the stated rows and columns of the arrays — token rows of tile `tile`, weight rows and scale
    entries and down-weight columns of block `k` — the partial product over the block is `part tile k`. -/
theorem block_part (x gw uw : Vec Ideal S512x2048 .bf16) (gs us : Vec Ideal S1x512 .f32) (dw : Vec Ideal S2048x512 .bf16)
    (tile k : ℕ)
    (hx : ∀ (p : Fin 512) (h : Fin 2048), x (ix2 p h) = tokens m c (chan 4096 512 h4096 tile p) h)
    (hgw : ∀ (i : Fin 512) (h : Fin 2048), gw (ix2 i h) = gateW m c (chan 5632 512 h5632 k i) h)
    (huw : ∀ (i : Fin 512) (h : Fin 2048), uw (ix2 i h) = upW m c (chan 5632 512 h5632 k i) h)
    (hdw : ∀ (o : Fin 2048) (i : Fin 512), dw (ix2 o i) = downW m c o (chan 5632 512 h5632 k i))
    (hgs : ∀ i : Fin 512, gs (ix2 (0 : Fin 1) i) = gateS m c (chan 5632 512 h5632 k i))
    (hus : ∀ i : Fin 512, us (ix2 (0 : Fin 1) i) = upS m c (chan 5632 512 h5632 k i))
    (p : Fin 512) (q : Fin 2048) :
    ∑ i : Fin 512, hidden (fun p h => x (ix2 p h)) (fun i h => gw (ix2 i h)) (fun i h => uw (ix2 i h))
        (fun i => gs (ix2 (0 : Fin 1) i)) (fun i => us (ix2 (0 : Fin 1) i)) p i * dw (ix2 q i)
      = part m c tile k p q := by
  unfold part
  refine Finset.sum_congr rfl fun i _ => ?_
  rw [hdw q i]
  congr 1
  exact hidden_congr (tokens m c) (gateW m c) (upW m c) (gateS m c) (upS m c) _ _ _ _ _
    (chan 4096 512 h4096 tile p) (chan 5632 512 h5632 k i) p i (fun h => hx p h) (fun h => hgw i h) (fun h => huw i h) (hgs i) (hus i)

/-- The partial product of the blocks point `t` reads is `part` of its token tile `t / 11` and block `t % 11`. -/
theorem point_part (t : Fin cfg0.N) (p : Fin 512) (q : Fin 2048) :
    ∑ i : Fin 512, hidden (fun p h => (iblk m c 0 t : Vec Ideal S512x2048 .bf16) (ix2 p h)) (fun i h => (iblk m c 1 t : Vec Ideal S512x2048 .bf16) (ix2 i h))
        (fun i h => (iblk m c 2 t : Vec Ideal S512x2048 .bf16) (ix2 i h)) (fun i => (iblk m c 4 t : Vec Ideal S1x512 .f32) (ix2 (0 : Fin 1) i))
        (fun i => (iblk m c 5 t : Vec Ideal S1x512 .f32) (ix2 (0 : Fin 1) i)) p i * (iblk m c 3 t : Vec Ideal S2048x512 .bf16) (ix2 q i)
      = part m c (t.val / 11) (t.val % 11) p q :=
  block_part m c (iblk m c 0 t) (iblk m c 1 t) (iblk m c 2 t) (iblk m c 4 t) (iblk m c 5 t) (iblk m c 3 t) (t.val / 11) (t.val % 11)
    (fun p h => blk_x m c t p h) (fun i h => blk_gw m c t i h) (fun i h => blk_uw m c t i h) (fun o i => blk_dw m c t o i)
    (fun i => blk_gs m c t i) (fun i => blk_us m c t i) p q

/-- At the first block of a token tile the scratch ends at zero plus the block's part. -/
theorem step_first (t : Fin cfg0.N) (h0 : t.val % 11 = 0) (h1 : ¬t.val % 11 = 10) (p : Fin 512) (q : Fin 2048) :
    (outsAt0 m c t.val t.isLt).2 (ix2 p q) = 0 + part m c (t.val / 11) (t.val % 11) p q := by
  rw [scratch_first m c t h0 h1]
  refine (pay3_apply (iblk m c 0 t) (iblk m c 1 t) (iblk m c 2 t) (iblk m c 4 t) (iblk m c 5 t) (iblk m c 3 t) (k0_pay2 (F := Ideal)) p q).trans ?_
  rw [pay2_apply, point_part m c t p q]

/-- At any later block it ends at what the point before left plus the block's part. -/
theorem step_next (t : Fin cfg0.N) (h0 : ¬t.val % 11 = 0) (p : Fin 512) (q : Fin 2048) :
    (outsAt0 m c t.val t.isLt).2 (ix2 p q)
      = (outsAt0 m c (t.val - 1) (Nat.lt_of_le_of_lt (Nat.sub_le _ _) t.isLt)).2 (ix2 p q) + part m c (t.val / 11) (t.val % 11) p q := by
  by_cases h1 : t.val % 11 = 10
  · rw [scratch_last m c t h0 h1]
    refine (pay3_apply (iblk m c 0 t) (iblk m c 1 t) (iblk m c 2 t) (iblk m c 4 t) (iblk m c 5 t) (iblk m c 3 t) (outsAt0 m c (t.val - 1) (Nat.lt_of_le_of_lt (Nat.sub_le _ _) t.isLt)).2 p q).trans ?_
    rw [point_part m c t p q]
  · rw [scratch_middle m c t h0 h1]
    refine (pay3_apply (iblk m c 0 t) (iblk m c 1 t) (iblk m c 2 t) (iblk m c 4 t) (iblk m c 5 t) (iblk m c 3 t) (outsAt0 m c (t.val - 1) (Nat.lt_of_le_of_lt (Nat.sub_le _ _) t.isLt)).2 p q).trans ?_
    rw [point_part m c t p q]

/-- At the last block the output block is the scratch block times the output scales. -/
theorem step_out (t : Fin cfg0.N) (h0 : ¬t.val % 11 = 0) (h1 : t.val % 11 = 10) (p : Fin 512) (q : Fin 2048) :
    (outsAt0 m c t.val t.isLt).1 (ix2 p q) = (outsAt0 m c t.val t.isLt).2 (ix2 p q) * downS m c q := by
  rw [out_last m c t h0 h1, scratch_last m c t h0 h1]
  refine (pay1_apply (k0_pay3 (iblk m c 0 t) (iblk m c 1 t) (iblk m c 2 t) (iblk m c 4 t) (iblk m c 5 t) (iblk m c 3 t) (outsAt0 m c (t.val - 1) (Nat.lt_of_le_of_lt (Nat.sub_le _ _) t.isLt)).2) (iblk m c 6 t) p q).trans ?_
  rw [blk_ds m c t q]
  rfl

/-! ## The running sum -/

/-- After point `n` the scratch block holds the parts of blocks `0 … n % 11` of token tile `n / 11`. -/
theorem scratch_eq : ∀ (n : ℕ) (hn : n < cfg0.N) (p : Fin 512) (q : Fin 2048),
    (outsAt0 m c n hn).2 (ix2 p q) = ∑ k ∈ Finset.range (n % 11 + 1), part m c (n / 11) k p q := by
  intro n
  induction n with
  | zero =>
    intro hn p q
    refine (step_first m c ⟨0, hn⟩ (Nat.zero_mod 11) (show ¬(0 : ℕ) % 11 = 10 by decide) p q).trans ?_
    exact running_first (fun k => part m c (0 / 11) k p q)
  | succ n ih =>
    intro hn p q
    have hN : n + 1 < 88 := lt_of_lt_of_eq hn N_0
    by_cases h0 : (n + 1) % 11 = 0
    · refine (step_first m c ⟨n + 1, hn⟩ h0 (show ¬(n + 1) % 11 = 10 by omega) p q).trans ?_
      show (0 : EReal) + part m c ((n + 1) / 11) ((n + 1) % 11) p q = _
      rw [h0]
      exact running_first (fun k => part m c ((n + 1) / 11) k p q)
    · refine (step_next m c ⟨n + 1, hn⟩ h0 p q).trans ?_
      show (outsAt0 m c n (Nat.lt_of_succ_lt hn)).2 (ix2 p q) + part m c ((n + 1) / 11) ((n + 1) % 11) p q = _
      have e1 : (n + 1) / 11 = n / 11 := by omega
      have e2 : (n + 1) % 11 = n % 11 + 1 := by omega
      rw [ih (Nat.lt_of_succ_lt hn) p q, e1, e2]
      exact running_next (fun k => part m c (n / 11) k p q) (n % 11 + 1)

/-- All eleven parts of a token row make up the whole sum over the intermediate axis. -/
theorem parts_total (tile : ℕ) (p : Fin 512) (q : Fin 2048) :
    ∑ k ∈ Finset.range 11, part m c tile k p q
      = ∑ i : Fin 5632, hidden (tokens m c) (gateW m c) (upW m c) (gateS m c) (upS m c) (chan 4096 512 h4096 tile p) i * downW m c q i :=
  sum_blocks 11 512 h5632 (fun i : Fin 5632 => hidden (tokens m c) (gateW m c) (upW m c) (gateS m c) (upS m c) (chan 4096 512 h4096 tile p) i * downW m c q i)

/-- The output block a last-block point leaves is the perceptron's entries on the point's token tile. -/
theorem out_block (t : Fin cfg0.N) (h1 : t.val % 11 = 10) (p : Fin 512) (q : Fin 2048) :
    (outsAt0 m c t.val t.isLt).1 (ix2 p q)
      = mlp (tokens m c) (gateW m c) (upW m c) (downW m c) (gateS m c) (upS m c) (downS m c) (chan 4096 512 h4096 (t.val / 11) p) q := by
  rw [step_out m c t (show ¬t.val % 11 = 0 by omega) h1 p q, scratch_eq m c t.val t.isLt p q, h1, parts_total m c (t.val / 11) p q]
  rfl

end Cert.GatedMlp.Kernel

end
-- ==== Proof.Final.lean ====
/-
  From the output blocks to the program's result.

  The grid has 8 × 11 points; point t works on token tile t / 11 and block t % 11 of the intermediate axis. The
  output array [4096, 2048] is written only at the points t ≡ 10 (mod 11), the last block of each token tile, and the
  point t = 11·r + 10 writes rows 512·r … 512·r + 511 (all 2048 columns): what it writes is the perceptron's entries
  on those rows. Row i of the array lies in the rows of the point 11·(i / 512) + 10, so the eight writing points cover
  the array, and after the run the array is, entry by entry,

      (i, o) ↦ mlp x gw uw dw gs us ds i o

  of the seven arrays the region finds. The one operation after the region reshapes that [4096, 2048] array to
  [2, 2048, 2048], which is the program's result; no operation after the region touches an argument. Last, each array
  the region finds is its argument read at the matching index (the tokens flattened to 4096 × 2048, the scales as one
  row), so the array is the specification's function of the arguments.
-/
import proofs.«175388_j4638564680470_2_alg».proof.Proof.Accum
import proofs.«175388_j4638564680470_2_alg».proof.Proof.Entry
import Idealize.ShloMosaic.Lib.Pipeline.Value
import Idealize.ShloMosaic.Lib.StableHlo.Run
import Idealize.ShloMosaic.Lib.Tactic

set_option maxRecDepth 16384

open scoped BigOperators

noncomputable section

namespace Cert.GatedMlp.Kernel

open Cert.KernelIdeal Cert.KernelIdeal.Gen
open Idealize.ShloMosaic Idealize.ShloMosaic.TcCoe Idealize.ShloMosaic.ValueIdx Idealize.SL.Sem Cert.GatedMlp
open Idealize.ShloMosaic.Pipeline (Dat)

variable (m : (ℓ : Loc nD τ sig) → Buf (Elt Ideal) ℓ) (c : Dev nD)

/-! ## Which rows a point writes -/

/-- The output's block index at point t: token tile t / 11, and the one block of columns. -/
theorem out_idx : ∀ t : Fin cfg0.N, win0_7.index t (0 : Fin 2) = t.val / 11 ∧ win0_7.index t (1 : Fin 2) = 0 :=
  (by decide +kernel : ∀ t : Fin grid0.N, _)

/-- The perceptron of the seven arrays the region finds, as a [4096, 2048] array. -/
def kernelArr : S4096x2048.Idx → EReal := fun j =>
  mlp (tokens m c) (gateW m c) (upW m c) (downW m c) (gateS m c) (upS m c) (downS m c) (j 0) (j 1)

/-- What a last-block point writes back is its block of that array: entry (p, q) of the block of point t is entry
    (512·(t / 11) + p, q) of the array. -/
theorem flushed_eq (t : Fin cfg0.N) (hf : (cfg0.win 7).flush t = true) :
    (dats m 0 c).flushed 7 t = ((cfg0.win 7).blk t).view.read (Elt Ideal) (kernelArr m c) := by
  show (cfg0.win 7).cut (grid0.coords t) ((dats m 0 c).after 7 t) = _
  rw [after0_7]
  funext j
  obtain ⟨p, q, rfl⟩ : ∃ (p : Fin 512) (q : Fin 2048), j = ix2 p q := ⟨j 0, j 1, eq_ix2 j⟩
  show (outsAt0 m c t.val t.isLt).1 (ix2 p q) = kernelArr m c (((cfg0.win 7).blk t).view.emb (ix2 p q))
  rw [out_block m c t ((flush0_7 t).mp hf) p q]
  obtain ⟨e0, e1⟩ := out_idx t
  have ht := point_lt t
  have hp := p.isLt
  have hrow : ((cfg0.win 7).blk t).view.emb (ix2 p q) 0 = chan 4096 512 h4096 (t.val / 11) p := Fin.ext (by
    show win0_7.index t (0 : Fin 2) * 512 + 1 * p.val = (512 * (t.val / 11) + p.val) % 4096
    rw [e0]; omega)
  have hcol : ((cfg0.win 7).blk t).view.emb (ix2 p q) 1 = q := Fin.ext (by
    show win0_7.index t (1 : Fin 2) * 2048 + 1 * q.val = q.val
    rw [e1]; omega)
  unfold kernelArr
  rw [hrow, hcol]

/-- An index of the array is in point t's block iff each coordinate is in the block's range on its axis. -/
theorem mem_blk (t : Fin cfg0.N) (i : S4096x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v8).slice (win0_7.rect t)).set ↔ _
  rw [View.set_slice_whole, Rect.mem_set_unit]
  exact Iff.rfl

/-! ## The writing points cover the array -/

/-- The point that writes row i, 11·(i / 512) + 10, is a point of the grid. -/
theorem row_point_lt (i : S4096x2048.Idx) : 11 * ((i 0).val / 512) + 10 < cfg0.N := by
  have h0 : (i 0).val < 4096 := (i 0).isLt
  have hN : cfg0.N = 88 := N_0
  omega

/-- The output array after the run: the perceptron of the arrays the region finds. Row i is written by the point
    11·(i / 512) + 10, a last-block point whose token tile is i / 512. -/
theorem final : (dats m 0 c).arrAt 7 cfg0.N = kernelArr m c :=
  (dats m 0 c).arrAt_eq_of_cover 7 (kernelArr m c) (flushed_eq m c) fun i =>
    ⟨⟨11 * ((i 0).val / 512) + 10, row_point_lt i⟩,
      (flush0_7 _).mpr (by show (11 * ((i 0).val / 512) + 10) % 11 = 10; omega), by
      rw [mem_blk]
      obtain ⟨e0, e1⟩ := out_idx ⟨11 * ((i 0).val / 512) + 10, row_point_lt i⟩
      have h0 : (i 0).val < 4096 := (i 0).isLt
      have h1 : (i 1).val < 2048 := (i 1).isLt
      intro a
      match a with
      | ⟨0, _⟩ =>
        show win0_7.index ⟨11 * ((i 0).val / 512) + 10, row_point_lt i⟩ (0 : Fin 2) * 512 ≤ (i 0).val
          ∧ (i 0).val < win0_7.index ⟨11 * ((i 0).val / 512) + 10, row_point_lt i⟩ (0 : Fin 2) * 512 + 512
        rw [e0]
        show (11 * ((i 0).val / 512) + 10) / 11 * 512 ≤ (i 0).val ∧ (i 0).val < (11 * ((i 0).val / 512) + 10) / 11 * 512 + 512
        omega
      | ⟨1, _⟩ =>
        show win0_7.index ⟨11 * ((i 0).val / 512) + 10, row_point_lt i⟩ (1 : Fin 2) * 2048 ≤ (i 1).val
          ∧ (i 1).val < win0_7.index ⟨11 * ((i 0).val / 512) + 10, row_point_lt i⟩ (1 : Fin 2) * 2048 + 2048
        rw [e1]
        omega⟩

/-! ## The run -/

/-- The result buffer after the operation that follows the region: the output array reshaped to [2, 2048, 2048]. -/
theorem tail_result :
    Pipeline.afterTail₀ cfgs (dats m) 0 (V0 m) [hostOps1] c main_v9
      = shapeCast S2x2048x2048 (kernelArr m c) shapeCasts_S4096x2048_S2x2048x2048 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = kernelArr m c :=
    (Pipeline.withArrays_arr spec0 launch0.win.arr_inj c _ _ 7).trans (final m c)
  exact congrArg (fun A => shapeCast S2x2048x2048 A shapeCasts_S4096x2048_S2x2048x2048) e

/-- Every run of the program ends with the result buffer at that reshaped array and the seven arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v9) = shapeCast S2x2048x2048 (kernelArr m c) shapeCasts_S4096x2048_S2x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v9 (Pipeline.mem_restRefs_of main_v9 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

/-! ## In terms of the arguments -/

/-- The arrays the region finds are the arguments read at the matching indices, so the output array is the
    specification's array function of the arguments (the tokens flattened to 4096 × 2048). -/
theorem kernelArr_eq :
    kernelArr m c = mlpArr (shapeCast S4096x2048 (m ((c : Thread nD τ).loc main_arg0)) shapeCasts_S2x2048x2048_S4096x2048)
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  have hx : tokens m c = fun t h =>
      shapeCast S4096x2048 (m ((c : Thread nD τ).loc main_arg0)) shapeCasts_S2x2048x2048_S4096x2048 (ix2 t h) :=
    funext fun t => funext fun h => entry_x m c t h
  have hgw : gateW m c = fun i h => m ((c : Thread nD τ).loc main_arg1) (ix2 i h) :=
    funext fun i => funext fun h => entry_gw m c i h
  have huw : upW m c = fun i h => m ((c : Thread nD τ).loc main_arg2) (ix2 i h) :=
    funext fun i => funext fun h => entry_uw m c i h
  have hdw : downW m c = fun o i => m ((c : Thread nD τ).loc main_arg3) (ix2 o i) :=
    funext fun o => funext fun i => entry_dw m c o i
  have hgs : gateS m c = fun i => m ((c : Thread nD τ).loc main_arg4) (ix1 i) := funext fun i => entry_gs m c i
  have hus : upS m c = fun i => m ((c : Thread nD τ).loc main_arg5) (ix1 i) := funext fun i => entry_us m c i
  have hds : downS m c = fun o => m ((c : Thread nD τ).loc main_arg6) (ix1 o) := funext fun o => entry_ds m c o
  funext j
  unfold kernelArr mlpArr
  rw [hx, hgw, huw, hdw, hgs, hus, hds]

end Cert.GatedMlp.Kernel

end
-- ==== Proof.lean ====
/-
  A fused gated perceptron kernel against its plain reference, over the extended reals.

  Both programs take tokens x [2, 2048, 2048] (read as a [4096, 2048] matrix), gate and up weights gw, uw
  [5632, 2048], down weights dw [2048, 5632] and per-channel scales gs, us [5632], ds [2048], and return

      out (t, o) = (∑_{i < 5632} hidden (t, i) · dw (o, i)) · ds (o),
      hidden (t, i) = g · σ(g) · u,  g = (∑_h x (t, h) · gw (i, h)) · gs (i),  u = (∑_h x (t, h) · uw (i, h)) · us (i),

  reshaped back to [2, 2048, 2048]; σ is the logistic function, which the reference spells 1 / (1 + e^(−g)).
  The reference evaluates this directly. The kernel walks a grid of 8 token tiles by 11 blocks of 512 intermediate
  channels; for a token tile it keeps a running sum in a scratch block, zeroed at the first block, to which every
  block adds its partial product, and at the last block writes the running sum times ds to the output tile. Its
  changes of float format are the identity on the extended reals. The two results agree because a sum over 5632
  channels is the sum of its eleven consecutive blocks of 512, added in order from zero: commutativity and
  associativity of addition only, so the precondition is never opened.

  The kernel's side: Pieces (what each control case stores), Steps (the recursion over grid points), Payload (the
  stored values entry by entry), Entry (the blocks a point reads, as rows and columns of the arguments), Accum (the
  running sum is the blocked evaluation), Final (the output array, the trailing reshape, the run). The reference's
  side: RefIsSpec. The specification and the block law: Spec.
-/
import proofs.«175388_j4638564680470_2_alg».proof.Defs
import proofs.«175388_j4638564680470_2_alg».proof.Proof.Gen.Kernel
import proofs.«175388_j4638564680470_2_alg».proof.Proof.Gen.Kernel.Skeleton
import proofs.«175388_j4638564680470_2_alg».proof.Proof.Gen.Kernel.Launch
import proofs.«175388_j4638564680470_2_alg».proof.Proof.Gen.Kernel.Points
import proofs.«175388_j4638564680470_2_alg».proof.Proof.Gen.Kernel.Frame
import proofs.«175388_j4638564680470_2_alg».proof.Proof.Gen.KernelIdeal
import proofs.«175388_j4638564680470_2_alg».proof.Proof.Gen.KernelIdeal.Skeleton
import proofs.«175388_j4638564680470_2_alg».proof.Proof.Gen.KernelIdeal.Launch
import proofs.«175388_j4638564680470_2_alg».proof.Proof.Gen.KernelIdeal.Points
import proofs.«175388_j4638564680470_2_alg».proof.Proof.Gen.KernelIdeal.Frame
import proofs.«175388_j4638564680470_2_alg».proof.Proof.Gen.ReferenceIdeal
import proofs.«175388_j4638564680470_2_alg».proof.Proof.Gen.ReferenceIdeal.Run
import proofs.«175388_j4638564680470_2_alg».proof.Proof.Gen.Pre_finite_inputs
import proofs.«175388_j4638564680470_2_alg».proof.Proof.RefIsSpec
import proofs.«175388_j4638564680470_2_alg».proof.Proof.Final
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the reshape of the perceptron's [4096, 2048] result of arguments that agree. -/
theorem algebraic : Cert.algebraic_KernelIdeal_ReferenceIdeal := by
  intro m ρ m' ρ' _ hagree
  refine ⟨fun c => shapeCast Cert.KernelIdeal.S2x2048x2048 (Cert.GatedMlp.Kernel.kernelArr m c)
      Cert.KernelIdeal.Facts₀.shapeCasts_S4096x2048_S2x2048x2048, Cert.GatedMlp.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  refine (Cert.GatedMlp.Ref.ref_result_eq _ _ _ _ _ _ _).trans ?_
  rw [a0, a1, a2, a3, a4, a5, a6]
  show _ = shapeCast Cert.KernelIdeal.S2x2048x2048 (Cert.GatedMlp.Kernel.kernelArr m c)
    Cert.KernelIdeal.Facts₀.shapeCasts_S4096x2048_S2x2048x2048
  rw [Cert.GatedMlp.Kernel.kernelArr_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
